-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x64 .f32) (main_arg1 : FVec F S800000x64 .f32) (main_arg2 : IVec S800000 32) (main_arg3 : IVec S800000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S1x64 : Shape := ⟨2, ![1, 64]⟩
abbrev S5000x64 : Shape := ⟨2, ![5000, 64]⟩
abbrev S8000x64 : Shape := ⟨2, ![8000, 64]⟩
abbrev S_ : Shape := ⟨0, ![]⟩
abbrev S800000x1 : Shape := ⟨2, ![800000, 1]⟩

abbrev nBuf : Space → Nat
  | .hbm => 36
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x64, .f32⟩
  | .hbm, ⟨15, _⟩ => ⟨S50000x64, .f32⟩
  | .hbm, ⟨16, _⟩ => ⟨S1x64, .f32⟩
  | .hbm, ⟨17, _⟩ => ⟨S1x64, .f32⟩
  | .hbm, ⟨18, _⟩ => ⟨S800000x64, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S800000x64, .f32⟩
  | .hbm, ⟨29, _⟩ => ⟨S_, .f32⟩
  | .hbm, ⟨30, _⟩ => ⟨S50000x64, .f32⟩
  | .hbm, ⟨31, _⟩ => ⟨S800000x1, .i32⟩
  | .hbm, ⟨32, _⟩ => ⟨S50000x64, .f32⟩
  | .hbm, ⟨33, _⟩ => ⟨S1x64, .f32⟩
  | .hbm, ⟨34, _⟩ => ⟨S1x64, .f32⟩
  | .hbm, ⟨35, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S8000x64, .f32⟩
  | .local _ .vmem, ⟨7, _⟩ => ⟨S8000x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S8000x64, .f32⟩
  | .local _ .vmem, ⟨13, _⟩ => ⟨S8000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S8000x64_S8000x64_0_0 : ∀ a, (![0, 0] : Fin 2 → Nat) a + S8000x64.size a ≤ S8000x64.size a
  h_S8000x64 : 0 < S8000x64.numel
  broadcasts_S1x64_S8000x64 : S1x64.Broadcasts S8000x64
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S5000x64_S5000x64 : S5000x64.ShapeCasts S5000x64
  dot_S5000x64_S64x64_S5000x64_1_0_0_1_n_n_wf : DotDims.WF S5000x64 S64x64 S5000x64 [1] [0] [0] [1] [] []
  dot_S8000x64_S64x64_S8000x64_1_0_0_1_n_n_wf : DotDims.WF S8000x64 S64x64 S8000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x64.size a ≤ S800000x64.size a
  hwx1_5 : ∀ i : grid1.Coords, EltTy.bits .f32 = 32 ∨ (Rect.block (s := S800000x64) S8000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S8000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v15) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S1x64 : Shape := ⟨2, ![1, 64]⟩
abbrev S_ : Shape := ⟨0, ![]⟩
abbrev S800000x1 : Shape := ⟨2, ![800000, 1]⟩

abbrev nBuf : Space → Nat
  | .hbm => 99
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S50000x64, .f32⟩
  | .hbm, ⟨15, _⟩ => ⟨S1x64, .f32⟩
  | .hbm, ⟨16, _⟩ => ⟨S50000x64, .f32⟩
  | .hbm, ⟨17, _⟩ => ⟨S50000x64, .f32⟩
  | .hbm, ⟨18, _⟩ => ⟨S800000x64, .f32⟩
  | .hbm, ⟨19, _⟩ => ⟨S1x64, .f32⟩
  | .hbm, ⟨20, _⟩ => ⟨S800000x64, .f32⟩
  | .hbm, ⟨21, _⟩ => ⟨S800000x64, .f32⟩
  | .hbm, ⟨22, _⟩ => ⟨S_, .f32⟩
  | .hbm, ⟨23, _⟩ => ⟨S800000x64, .f32⟩
  | .hbm, ⟨24, _⟩ => ⟨S800000x64, .f32⟩
  | .hbm, ⟨25, _⟩ => ⟨S800000x64, .f32⟩
  | .hbm, ⟨26, _⟩ => ⟨S800000x64, .f32⟩
  | .hbm, ⟨27, _⟩ => ⟨S800000x64, .i1⟩
  | .hbm, ⟨28, _⟩ => ⟨S800000x64, .f32⟩
  | .hbm, ⟨29, _⟩ => ⟨S800000x64, .f32⟩
  | .hbm, ⟨30, _⟩ => ⟨S800000x64, .f32⟩
  | .hbm, ⟨31, _⟩ => ⟨S800000x64, .f32⟩
  | .hbm, ⟨32, _⟩ => ⟨S800000x64, .f32⟩
  | .hbm, ⟨33, _⟩ => ⟨S800000x64, .f32⟩
  | .hbm, ⟨34, _⟩ => ⟨S800000x64, .f32⟩
  | .hbm, ⟨35, _⟩ => ⟨S800000x64, .f32⟩
  | .hbm, ⟨36, _⟩ => ⟨S_, .f32⟩
  | .hbm, ⟨37, _⟩ => ⟨S800000x64, .f32⟩
  | .hbm, ⟨38, _⟩ => ⟨S800000x64, .f32⟩
  | .hbm, ⟨39, _⟩ => ⟨S800000x64, .f32⟩
  | .hbm, ⟨40, _⟩ => ⟨S1x64, .f32⟩
  | .hbm, ⟨41, _⟩ => ⟨S800000x64, .f32⟩
  | .hbm, ⟨42, _⟩ => ⟨S800000x64, .f32⟩
  | .hbm, ⟨43, _⟩ => ⟨S_, .f32⟩
  | .hbm, ⟨44, _⟩ => ⟨S800000x64, .f32⟩
  | .hbm, ⟨45, _⟩ => ⟨S800000x64, .f32⟩
  | .hbm, ⟨46, _⟩ => ⟨S800000x64, .f32⟩
  | .hbm, ⟨47, _⟩ => ⟨S800000x64, .f32⟩
  | .hbm, ⟨48, _⟩ => ⟨S800000x64, .i1⟩
  | .hbm, ⟨49, _⟩ => ⟨S800000x64, .f32⟩
  | .hbm, ⟨50, _⟩ => ⟨S800000x64, .f32⟩
  | .hbm, ⟨51, _⟩ => ⟨S800000x64, .f32⟩
  | .hbm, ⟨52, _⟩ => ⟨S800000x64, .f32⟩
  | .hbm, ⟨53, _⟩ => ⟨S800000x64, .f32⟩
  | .hbm, ⟨54, _⟩ => ⟨S800000x64, .f32⟩
  | .hbm, ⟨55, _⟩ => ⟨S800000x64, .f32⟩
  | .hbm, ⟨56, _⟩ => ⟨S800000x64, .f32⟩
  | .hbm, ⟨57, _⟩ => ⟨S_, .f32⟩
  | .hbm, ⟨58, _⟩ => ⟨S800000x64, .f32⟩
  | .hbm, ⟨59, _⟩ => ⟨S800000x64, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x64, .f32⟩
  | .hbm, ⟨69, _⟩ => ⟨S800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S50000x64, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S_, .f32⟩
  | .hbm, ⟨79, _⟩ => ⟨S50000x64, .f32⟩
  | .hbm, ⟨80, _⟩ => ⟨S50000x64, .f32⟩
  | .hbm, ⟨81, _⟩ => ⟨S50000x64, .f32⟩
  | .hbm, ⟨82, _⟩ => ⟨S50000x64, .f32⟩
  | .hbm, ⟨83, _⟩ => ⟨S50000x64, .i1⟩
  | .hbm, ⟨84, _⟩ => ⟨S50000x64, .f32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S50000x64, .f32⟩
  | .hbm, ⟨91, _⟩ => ⟨S50000x64, .f32⟩
  | .hbm, ⟨92, _⟩ => ⟨S_, .f32⟩
  | .hbm, ⟨93, _⟩ => ⟨S50000x64, .f32⟩
  | .hbm, ⟨94, _⟩ => ⟨S50000x64, .f32⟩
  | .hbm, ⟨95, _⟩ => ⟨S50000x64, .f32⟩
  | .hbm, ⟨96, _⟩ => ⟨S1x64, .f32⟩
  | .hbm, ⟨97, _⟩ => ⟨S50000x64, .f32⟩
  | .hbm, ⟨98, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v8 : Ref sig .tc := ⟨.hbm, 35, rfl⟩
abbrev main_cst : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_call1_cst : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_v15 : Ref sig .tc := ⟨.hbm, 56, rfl⟩
abbrev main_cst_0 : Ref sig .tc := ⟨.hbm, 57, rfl⟩
abbrev main_v16 : Ref sig .tc := ⟨.hbm, 58, rfl⟩
abbrev main_v17 : Ref sig .tc := ⟨.hbm, 59, rfl⟩
abbrev main_c : Ref sig .tc := ⟨.hbm, 60, rfl⟩
abbrev main_v18 : Ref sig .tc := ⟨.hbm, 61, rfl⟩
abbrev main_v19 : Ref sig .tc := ⟨.hbm, 62, rfl⟩
abbrev main_c_1 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_2 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_v33 : Ref sig .tc := ⟨.hbm, 91, rfl⟩
abbrev main_cst_3 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  dot_S50000x64_S64x64_S50000x64_1_0_0_1_n_n_wf : DotDims.WF S50000x64 S64x64 S50000x64 [1] [0] [0] [1] [] []
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run with its result read back. The program is three grids of row blocks among stretches of host
  operations; the contents of every buffer at each boundary between them is a fold from the launch memory, and the last
  boundary's contents are what every final state holds. Here that final state is read at the result array as well as at the
  argument arrays: the result array ends at the fold's value there, the arguments end as launched.
-/
import proofs.«125523_j25623774888013_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the last boundary's contents and every
    argument array as launched. -/
theorem run_result : θ_run defs (onTc (τ := τ) (main (F := F))) ⟨m, fun _ => 0, ρ⟩ (fun r => ∀ c : Dev nD,
      r.2.mem ((c.tc : Thread nD τ).loc main_v18) = W6 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v18 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.Whole

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«125523_j25623774888013_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibSoftplusLayers.lean ====
/-
  The shifted softplus `log(1 + eˣ) − c` in the numerically stable spelling `max(x, 0) + log1p(exp(−|x − 0|))`, guarded by a
  test `(x − 0) ≠ (x − 0)` that never fires on the extended reals, and dense layers `rows · weights + bias row` with that
  activation between them, each in two spellings that denote one function of the extended reals:

  * a kernel body's — the rows of one block, the weights rounded to bf16 (the identity here), a matrix-unit product into a zero
    accumulator, the bias a `[1, M]` row repeated down the rows, the negation spelled `0 − y`, the never-firing test the ordered
    "not equal";
  * the host's — `dot_general`, the bias `[M]` lifted to `[1, M]` and then to `[A, M]`, the constants rank-0 arrays broadcast
    to the shape, `negate`, the test the unordered "not equal".

  Entry `(p, q)` of a layer reads row `p` of its input only, so a block of rows of the result is the result of that block of rows.
-/
import Idealize.ShloMosaic.PureOps.Ideal.Laws
import Idealize.ShloMosaic.Lib.ValueIdx
import Idealize.ShloMosaic.Lib.ValueLayout
import Idealize.ShloMosaic.Lib.Pipeline.Value
import proofs.«125523_j25623774888013_1_alg».proof.Proof.LibPlainDot
import proofs.«125523_j25623774888013_1_alg».proof.Proof.LibAffine

noncomputable section

namespace Idealize.ShloMosaic.SoftplusLayers

open Idealize.ShloMosaic.ValueIdx Idealize.ShloMosaic.Affine

/-! ## The activation on one extended real -/

/-- The f32 word of `0.0`, kept as a word: both spellings carry it, and only the step `0 − y = −y` evaluates it. -/
def zeroW : EReal := Ideal.ofBits .f32 0x00000000#32

/-- The f32 word the activation is shifted by (the float nearest `log 2`), never evaluated: both spellings carry the same word. -/
def shiftW : EReal := Ideal.ofBits .f32 0x3F317218#32

/-- `max(x, 0) + log1p(exp(−|x − 0|)) − c` behind the guard `(x − 0) ≠ (x − 0)`, which selects `x + 0` where it holds (nowhere). -/
def ssp (x : EReal) : EReal :=
  Scalar.select (Ideal.cmp .une (x - zeroW) (x - zeroW)) (x + zeroW)
    (max x zeroW + Ideal.log1p (Ideal.exp (-(max (x - zeroW) (-(x - zeroW)))))) - shiftW

/-- The kernel body's spelling of the same number: the ordered "not equal" and `0 − |·|`. -/
theorem ssp_kernel (x : EReal) :
    Scalar.select (Ideal.cmp .one (x - zeroW) (x - zeroW)) (x + zeroW)
      (max x zeroW + Ideal.log1p (Ideal.exp (zeroW - max (x - zeroW) (-(x - zeroW))))) - shiftW = ssp x := by
  have hz : zeroW - max (x - zeroW) (-(x - zeroW)) = -(max (x - zeroW) (-(x - zeroW))) := by
    rw [show zeroW = (0 : EReal) from Ideal.ofBits_zero_f32, zero_sub]
  rw [hz]
  rfl

/-! ## The activation on an array, in the two spellings -/

variable {s : Shape}

/-- The activation applied to every entry. -/
def sspV (x : FVec Ideal s .f32) : FVec Ideal s .f32 := fun i => ssp (x i)

/-- A kernel body's spelling on a vector: scalar constants splat to the shape. -/
def sspK (x : FVec Ideal s .f32) : FVec Ideal s .f32 :=
  subf (select (cmpf .one (subf x (broadcast s (Scalar.ofBits (F := Ideal) .f32 0x00000000#32))) (subf x (broadcast s (Scalar.ofBits (F := Ideal) .f32 0x00000000#32))))
      (addf x (broadcast s (Scalar.ofBits (F := Ideal) .f32 0x00000000#32)))
      (addf (maximumf x (broadcast s (Scalar.ofBits (F := Ideal) .f32 0x00000000#32)))
        (log1p (exp (subf (broadcast s (Scalar.ofBits (F := Ideal) .f32 0x00000000#32)) (absf (subf x (broadcast s (Scalar.ofBits (F := Ideal) .f32 0x00000000#32)))))))))
    (broadcast s (Scalar.ofBits (F := Ideal) .f32 0x3F317218#32))

theorem sspK_eq (x : FVec Ideal s .f32) : sspK x = sspV x := funext fun i => ssp_kernel (x i)

/-- The host's spelling: rank-0 constants broadcast to the shape, `abs`, `negate`, `exponential`, `log_plus_one`. -/
def sspH (h0 : (⟨0, ![]⟩ : Shape).BroadcastsInDim s ![]) (x : FVec Ideal s .f32) : FVec Ideal s .f32 :=
  subf (select (cmpf .une (subf x (broadcastInDim s ![] h0 (constant (F := Ideal) ⟨0, ![]⟩ .f32 0x00000000#32))) (subf x (broadcastInDim s ![] h0 (constant (F := Ideal) ⟨0, ![]⟩ .f32 0x00000000#32))))
      (addf x (broadcastInDim s ![] h0 (constant (F := Ideal) ⟨0, ![]⟩ .f32 0x00000000#32)))
      (addf (maximumf x (broadcastInDim s ![] h0 (constant (F := Ideal) ⟨0, ![]⟩ .f32 0x00000000#32)))
        (Host.log1p (Host.exp (Host.negf (Host.absf (subf x (broadcastInDim s ![] h0 (constant (F := Ideal) ⟨0, ![]⟩ .f32 0x00000000#32)))))))))
    (broadcastInDim s ![] h0 (constant (F := Ideal) ⟨0, ![]⟩ .f32 0x3F317218#32))

theorem sspH_eq (h0 : (⟨0, ![]⟩ : Shape).BroadcastsInDim s ![]) (x : FVec Ideal s .f32) : sspH h0 x = sspV x := rfl

/-! ## A dense layer in the two spellings -/

variable {A A' K H M : Nat}

/-- A kernel body's dense layer on a block of rows: rows and weights rounded to bf16, the matrix unit's product into a zero
    accumulator, the bias row (recast to its own shape) repeated down the rows. -/
def denseK (d : DotDims ⟨2, ![A, K]⟩ ⟨2, ![K, M]⟩ ⟨2, ![A, M]⟩) (ht : FTy.bf16.bits < FTy.f32.bits)
    (hc : (⟨2, ![1, M]⟩ : Shape).ShapeCasts ⟨2, ![1, M]⟩) (hb : (⟨2, ![1, M]⟩ : Shape).Broadcasts ⟨2, ![A, M]⟩)
    (x : FVec Ideal ⟨2, ![A, K]⟩ .f32) (w : FVec Ideal ⟨2, ![K, M]⟩ .f32) (b : FVec Ideal ⟨2, ![1, M]⟩ .f32) :
    FVec Ideal ⟨2, ![A, M]⟩ .f32 :=
  addf (matmul d none (truncf .bf16 x ht) (truncf .bf16 w ht) (constant ⟨2, ![A, M]⟩ .f32 0x00000000#32))
    (broadcastTo ⟨2, ![A, M]⟩ (shapeCast ⟨2, ![1, M]⟩ b hc) hb)

/-- It is `rows · weights + bias row`, entry by entry. -/
theorem denseK_eq {d : DotDims ⟨2, ![A, K]⟩ ⟨2, ![K, M]⟩ ⟨2, ![A, M]⟩} (hd : d = DotDims.plain A K M)
    (ht : FTy.bf16.bits < FTy.f32.bits) (hc : (⟨2, ![1, M]⟩ : Shape).ShapeCasts ⟨2, ![1, M]⟩)
    (hb : (⟨2, ![1, M]⟩ : Shape).Broadcasts ⟨2, ![A, M]⟩)
    (x : FVec Ideal ⟨2, ![A, K]⟩ .f32) (w : FVec Ideal ⟨2, ![K, M]⟩ .f32) (b : FVec Ideal ⟨2, ![1, M]⟩ .f32) :
    denseK d ht hc hb x w b = affine x (truncf .bf16 w ht) b := by
  subst hd
  funext i
  obtain ⟨p, q, rfl⟩ : ∃ (p : Fin A) (q : Fin M), i = ix2 p q := ⟨i 0, i 1, eq_ix2 i⟩
  unfold denseK
  rw [shapeCast_self]
  exact body_apply none x (truncf .bf16 w ht) b ht hb p q

/-- The host's dense layer on all the rows: `dot_general` plus the bias lifted to a row and then to the rows. -/
def denseH (d : DotDims ⟨2, ![A, K]⟩ ⟨2, ![K, M]⟩ ⟨2, ![A, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (X : FVec Ideal ⟨2, ![A, K]⟩ .f32) (W : FVec Ideal ⟨2, ![K, M]⟩ .f32) (b : FVec Ideal ⟨1, ![M]⟩ .f32) :
    FVec Ideal ⟨2, ![A, M]⟩ .f32 :=
  addf (Host.dotGeneral d none X W) (broadcastInDim ⟨2, ![A, M]⟩ ![0, 1] h2 (broadcastInDim ⟨2, ![1, M]⟩ ![1] h1 b))

/-- It is the same function of the weights rounded to bf16 and the bias recast to a row. -/
theorem denseH_eq {d : DotDims ⟨2, ![A, K]⟩ ⟨2, ![K, M]⟩ ⟨2, ![A, M]⟩} (hd : d = DotDims.plain A K M)
    (h1 : (⟨1, ![M]⟩ : Shape).BroadcastsInDim ⟨2, ![1, M]⟩ ![1])
    (h2 : (⟨2, ![1, M]⟩ : Shape).BroadcastsInDim ⟨2, ![A, M]⟩ ![0, 1])
    (ht : FTy.bf16.bits < FTy.f32.bits) (hc : (⟨1, ![M]⟩ : Shape).ShapeCasts ⟨2, ![1, M]⟩)
    (X : FVec Ideal ⟨2, ![A, K]⟩ .f32) (W : FVec Ideal ⟨2, ![K, M]⟩ .f32) (b : FVec Ideal ⟨1, ![M]⟩ .f32) :
    denseH d h1 h2 X W b = affine X (truncf .bf16 W ht) (shapeCast ⟨2, ![1, M]⟩ b hc) := by
  subst hd
  exact (affine_eq_host none .single X W b ht hc h1 h2).symm

/-- Entry `(p, q)` of a dense layer reads row `p` of its input only: rows that agree give entries that agree. -/
theorem affine_rows {φw : FTy} (Xb : FVec Ideal ⟨2, ![A, K]⟩ .f32) (X : FVec Ideal ⟨2, ![A', K]⟩ .f32)
    (W : FVec Ideal ⟨2, ![K, M]⟩ φw) (b : FVec Ideal ⟨2, ![1, M]⟩ .f32) (p : Fin A) (r : Fin A')
    (h : ∀ k : Fin K, Xb (ix2 p k) = X (ix2 r k)) (q : Fin M) :
    affine Xb W b (ix2 p q) = affine X W b (ix2 r q) := by
  rw [affine_ix2, affine_ix2]
  congr 1
  exact Finset.sum_congr rfl fun k _ => by rw [h k]

/-! ## Two layers with the activation after each (an edge network), and two layers with the activation between (an output head) -/

/-- `ssp (ssp (X·W1 + b1)·W2 + b2)`. -/
def mlp2 {φ1 φ2 : FTy} (X : FVec Ideal ⟨2, ![A, K]⟩ .f32) (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) : FVec Ideal ⟨2, ![A, M]⟩ .f32 :=
  sspV (affine (sspV (affine X W1 b1)) W2 b2)

theorem mlp2_rows {φ1 φ2 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) (p : Fin A) (r : Fin A')
    (h : ∀ k : Fin K, Xb (ix2 p k) = X (ix2 r k)) (q : Fin M) :
    mlp2 Xb W1 b1 W2 b2 (ix2 p q) = mlp2 X W1 b1 W2 b2 (ix2 r q) := by
  show ssp (affine (sspV (affine Xb W1 b1)) W2 b2 (ix2 p q)) = ssp (affine (sspV (affine X W1 b1)) W2 b2 (ix2 r q))
  refine congrArg ssp ?_
  exact affine_rows _ _ W2 b2 p r (fun k => congrArg ssp (affine_rows Xb X W1 b1 p r h k)) q

/-- `ssp (X·Wo + bo)·Wp + bp`. -/
def proj2 {φ1 φ2 : FTy} (X : FVec Ideal ⟨2, ![A, K]⟩ .f32) (Wo : FVec Ideal ⟨2, ![K, H]⟩ φ1) (bo : FVec Ideal ⟨2, ![1, H]⟩ .f32)
    (Wp : FVec Ideal ⟨2, ![H, M]⟩ φ2) (bp : FVec Ideal ⟨2, ![1, M]⟩ .f32) : FVec Ideal ⟨2, ![A, M]⟩ .f32 :=
  affine (sspV (affine X Wo bo)) Wp bp

theorem proj2_rows {φ1 φ2 : FTy} (Xb : FVec Ideal ⟨2, ![A, K]⟩ .f32) (X : FVec Ideal ⟨2, ![A', K]⟩ .f32)
    (Wo : FVec Ideal ⟨2, ![K, H]⟩ φ1) (bo : FVec Ideal ⟨2, ![1, H]⟩ .f32)
    (Wp : FVec Ideal ⟨2, ![H, M]⟩ φ2) (bp : FVec Ideal ⟨2, ![1, M]⟩ .f32) (p : Fin A) (r : Fin A')
    (h : ∀ k : Fin K, Xb (ix2 p k) = X (ix2 r k)) (q : Fin M) :
    proj2 Xb Wo bo Wp bp (ix2 p q) = proj2 X Wo bo Wp bp (ix2 r q) :=
  affine_rows _ _ Wp bp p r (fun k => congrArg ssp (affine_rows Xb X Wo bo p r h k)) q

/-- The edge network as a kernel body spells it on a block of rows. -/
def mlp2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  sspK (denseK d2 ht hc2 hb2 (sspK (denseK d1 ht hc1 hb1 x0 x1 x2)) x3 x4)

theorem mlp2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    mlp2K d1 d2 ht hc1 hb1 hc2 hb2 x0 x1 x2 x3 x4 = mlp2 x0 (truncf .bf16 x1 ht) x2 (truncf .bf16 x3 ht) x4 := by
  unfold mlp2K mlp2
  rw [denseK_eq hd1, sspK_eq, denseK_eq hd2, sspK_eq]

/-- The output head as a kernel body spells it on a block of rows. -/
def proj2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  denseK d2 ht hc2 hb2 (sspK (denseK d1 ht hc1 hb1 x0 x1 x2)) x3 x4

theorem proj2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    proj2K d1 d2 ht hc1 hb1 hc2 hb2 x0 x1 x2 x3 x4 = proj2 x0 (truncf .bf16 x1 ht) x2 (truncf .bf16 x3 ht) x4 := by
  unfold proj2K proj2
  rw [denseK_eq hd1, sspK_eq, denseK_eq hd2]

end Idealize.ShloMosaic.SoftplusLayers

end
-- ==== Proof.NodeRegion.lean ====
/-
  The node projection: a grid of ten blocks of 5000 rows, each block `rows · Wn + bias row`. Block `t` of the result is
  rows `5000·t … 5000·t + 4999` of `X · Wn + bias row` on all 50000 rows, because an entry of a dense layer reads one row
  of its input; the ten blocks tile the result, so the result array ends at that function of the arrays the grid found.
-/
import proofs.«125523_j25623774888013_1_alg».proof.Proof.Gen.KernelIdeal.Frame
import proofs.«125523_j25623774888013_1_alg».proof.Proof.LibSoftplusLayers
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.ValueIdx Idealize.ShloMosaic.Affine Idealize.ShloMosaic.SoftplusLayers
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The body's one stored value is the kernel-side dense layer of its three loads. -/
theorem nodeBody_eq (x0 : Vec Ideal S5000x64 .f32) (x1 : Vec Ideal S64x64 .f32) (x2 : Vec Ideal S1x64 .f32) :
    k0_pay1 (F := Ideal) x0 x1 x2
      = affine x0 (truncf .bf16 x1 Facts₀.bitsLt_bf16_f32) x2 :=
  (show k0_pay1 (F := Ideal) x0 x1 x2 = denseK dot_S5000x64_S64x64_S5000x64_1_0_0_1_n_n Facts₀.bitsLt_bf16_f32
      Facts₀.shapeCasts_S1x64_S1x64 Facts₀.broadcasts_S1x64_S5000x64 x0 x1 x2 from rfl).trans
    (denseK_eq rfl _ _ _ x0 x1 x2)

/-- Where each window's block sits at grid point `t`: the row windows at block row `t`, the weights and the bias whole. -/
theorem nodeIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weights' block at any point is the whole weight matrix. -/
theorem nodeWeights (c : Dev nD) (t : Fin cfg0.N) : iblk0 V c 1 t = V c main_arg4 := by
  obtain ⟨-, -, e2, e3, -, -, -, -⟩ := nodeIndex t
  funext y
  show V c main_arg4 (((cfg0.win 1).blk t).view.emb y) = V c main_arg4 y
  refine congrArg _ ?_
  funext a; apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- The bias row's block at any point is the whole row. -/
theorem nodeBias (c : Dev nD) (t : Fin cfg0.N) : iblk0 V c 2 t = V c main_v0 := by
  obtain ⟨-, -, -, -, e4, e5, -, -⟩ := nodeIndex t
  funext y
  show V c main_v0 (((cfg0.win 2).blk t).view.emb y) = V c main_v0 y
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- What point `t` writes back is block `t` of the dense layer on all the rows. -/
theorem nodeFlushed (c : Dev nD) (t : Fin cfg0.N) :
    (dat0 V c).flushed 3 t = ((cfg0.win 3).blk t).view.read (Elt Ideal)
      (affine (V c main_arg0) (truncf .bf16 (V c main_arg4) Facts₀.bitsLt_bf16_f32) (V c main_v0)) := by
  show (cfg0.win 3).cut (grid0.coords t) ((dat0 V c).after 3 t) = _
  rw [after0_3]
  unfold out0_3
  rw [View.canon_unit_zero offsets_zero]
  simp only [View.ld_unit_zero (S := S5000x64) offsets_zero, View.ld_unit_zero (S := S64x64) offsets_zero,
    View.ld_unit_zero (S := S1x64) offsets_zero]
  rw [nodeBody_eq, nodeWeights V c t, nodeBias V c t]
  obtain ⟨e0, e1, -, -, -, -, e6, e7⟩ := nodeIndex t
  have ht : t.val < 10 := lt_of_lt_of_eq t.isLt N_0
  funext j
  obtain ⟨p, q, rfl⟩ : ∃ (p : Fin 5000) (q : Fin 64), j = ix2 p q := ⟨j 0, j 1, eq_ix2 j⟩
  have hp := p.isLt
  have hrow : ((cfg0.win 3).blk t).view.emb (ix2 p q) = ix2 (⟨t.val * 5000 + p.val, by omega⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 64 + 1 * q.val = q.val; omega
  show affine (iblk0 V c 0 t) (truncf .bf16 (V c main_arg4) Facts₀.bitsLt_bf16_f32) (V c main_v0) (ix2 p q)
    = affine (V c main_arg0) (truncf .bf16 (V c main_arg4) Facts₀.bitsLt_bf16_f32) (V c main_v0) (((cfg0.win 3).blk t).view.emb (ix2 p q))
  rw [hrow]
  refine affine_rows (iblk0 V c 0 t) (V c main_arg0) _ _ p _ (fun k => ?_) q
  show V c main_arg0 (((cfg0.win 0).blk t).view.emb (ix2 p k)) = V c main_arg0 (ix2 (⟨t.val * 5000 + p.val, by omega⟩ : Fin 50000) k)
  refine congrArg _ ?_
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega

/-- An index of the result is in point `t`'s block iff each coordinate is in the block's range on its axis. -/
theorem nodeMem (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v1).slice (win0_3.rect t)).set ↔ _
  rw [View.set_slice_whole, Rect.mem_set_unit]
  exact Iff.rfl

/-- Row `r` of the result is in the block of point `r / 5000`. -/
theorem nodeCover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  have htv : t.val = (i 0).val / 5000 := rfl
  obtain ⟨-, -, -, -, -, -, e6, e7⟩ := nodeIndex t
  refine ⟨t, flush0_3 t, ?_⟩
  rw [nodeMem]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- The projected node features: after the grid the result array holds `X · Wn + bias row` of the arrays the grid found. -/
theorem nodeFinal (c : Dev nD) :
    (dat0 V c).arrAt 3 cfg0.N
      = affine (V c main_arg0) (truncf .bf16 (V c main_arg4) Facts₀.bitsLt_bf16_f32) (V c main_v0) :=
  (dat0 V c).arrAt_eq_of_cover 3 _ (fun t _ => nodeFlushed V c t) nodeCover

end Cert.KernelIdeal.Whole

end
-- ==== Proof.EdgeRegion.lean ====
/-
  The edge network: a grid of a hundred blocks of 8000 rows, each block through two dense layers with the shifted softplus
  after each. Block `t` of the result is rows `8000·t … 8000·t + 7999` of the network on all 800000 rows, because an entry
  reads one row of the input; the hundred blocks tile the result.
-/
import proofs.«125523_j25623774888013_1_alg».proof.Proof.Gen.KernelIdeal.Frame
import proofs.«125523_j25623774888013_1_alg».proof.Proof.LibSoftplusLayers
import Idealize.ShloMosaic.Lib.Pipeline.Value

set_option maxRecDepth 16384

noncomputable section

namespace Cert.KernelIdeal.Whole.EdgeNet

open Cert.KernelIdeal Cert.KernelIdeal.Gen
open Idealize.ShloMosaic Idealize.ShloMosaic.TcCoe Idealize.SL.Sem
open Idealize.ShloMosaic.ValueIdx Idealize.ShloMosaic.Affine Idealize.ShloMosaic.SoftplusLayers
open Idealize.ShloMosaic.Pipeline (Dat)

variable (V : (c : Dev nD) → (b : Ref sig .tc) → Buf (Elt Ideal) ((c : Thread nD τ).loc b))

theorem offsets_zero' : (![0, 0] : Fin 2 → Nat) = fun _ => 0 := funext fun a => by fin_cases a <;> rfl

/-- The body's stored value — its statements are cut in two parts, the second layer's activation across the cut — is the
    kernel-side edge network of its five loads, hence two dense layers with the activation after each. -/
theorem edgeBody_eq (x0 : Vec Ideal S8000x64 .f32) (x1 : Vec Ideal S64x64 .f32) (x2 : Vec Ideal S1x64 .f32)
    (x3 : Vec Ideal S64x64 .f32) (x4 : Vec Ideal S1x64 .f32) :
    k1_pay1 (F := Ideal) (k1_pay3 x0 x1 x2 x3 x4) (k1_pay5 x0 x1 x2 x3 x4) (k1_pay6 x0 x1 x2 x3 x4) (k1_pay7 x0 x1 x2 x3 x4) (k1_pay8 (F := Ideal))
      = mlp2 x0 (truncf .bf16 x1 Facts₀.bitsLt_bf16_f32) x2 (truncf .bf16 x3 Facts₀.bitsLt_bf16_f32) x4 :=
  (show k1_pay1 (F := Ideal) (k1_pay3 x0 x1 x2 x3 x4) (k1_pay5 x0 x1 x2 x3 x4) (k1_pay6 x0 x1 x2 x3 x4) (k1_pay7 x0 x1 x2 x3 x4) (k1_pay8 (F := Ideal))
      = mlp2K dot_S8000x64_S64x64_S8000x64_1_0_0_1_n_n dot_S8000x64_S64x64_S8000x64_1_0_0_1_n_n Facts₀.bitsLt_bf16_f32
          Facts₀.shapeCasts_S1x64_S1x64 Facts₀.broadcasts_S1x64_S8000x64 Facts₀.shapeCasts_S1x64_S1x64 Facts₀.broadcasts_S1x64_S8000x64
          x0 x1 x2 x3 x4 from rfl).trans
    (mlp2K_eq rfl rfl _ _ _ _ _ x0 x1 x2 x3 x4)

/-- Rows that agree give entries that agree. -/
theorem edgeRows {φ1 φ2 : FTy} {Xb : FVec Ideal S8000x64 .f32} {X : FVec Ideal S800000x64 .f32}
    {W1 : FVec Ideal S64x64 φ1} {b1 : FVec Ideal S1x64 .f32} {W2 : FVec Ideal S64x64 φ2} {b2 : FVec Ideal S1x64 .f32}
    (p : Fin 8000) (r : Fin 800000) (h : ∀ k : Fin 64, Xb (ix2 p k) = X (ix2 r k)) (q : Fin 64) :
    mlp2 Xb W1 b1 W2 b2 (ix2 p q) = mlp2 X W1 b1 W2 b2 (ix2 r q) :=
  mlp2_rows Xb X W1 b1 W2 b2 p r h q

/-- Where each window's block sits at grid point `t`: the row windows at block row `t`, the weights and the bias rows whole. -/
theorem edgeIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 1's block at any point is its whole array. -/
theorem edgeWhole1 (c : Dev nD) (t : Fin cfg1.N) : iblk1 V c 1 t = V c main_arg6 := by
  obtain ⟨-, -, e2, e3, -, -, -, -, -, -, -, -⟩ := edgeIndex t
  funext y
  show V c main_arg6 (((cfg1.win 1).blk t).view.emb y) = V c main_arg6 y
  refine congrArg _ ?_
  funext a; apply Fin.ext
  match a with
  | ⟨0, _⟩ => show win1_1.index t (0 : Fin 2) * 64 + 1 * (y 0).val = (y 0).val; omega
  | ⟨1, _⟩ => show win1_1.index t (1 : Fin 2) * 64 + 1 * (y 1).val = (y 1).val; omega

/-- Window 2's block at any point is its whole array. -/
theorem edgeWhole2 (c : Dev nD) (t : Fin cfg1.N) : iblk1 V c 2 t = V c main_v2 := by
  obtain ⟨-, -, -, -, e4, e5, -, -, -, -, -, -⟩ := edgeIndex t
  funext y
  show V c main_v2 (((cfg1.win 2).blk t).view.emb y) = V c main_v2 y
  refine congrArg _ ?_
  funext a; apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- Window 3's block at any point is its whole array. -/
theorem edgeWhole3 (c : Dev nD) (t : Fin cfg1.N) : iblk1 V c 3 t = V c main_arg8 := by
  obtain ⟨-, -, -, -, -, -, e6, e7, -, -, -, -⟩ := edgeIndex t
  funext y
  show V c main_arg8 (((cfg1.win 3).blk t).view.emb y) = V c main_arg8 y
  refine congrArg _ ?_
  funext a; apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- Window 4's block at any point is its whole array. -/
theorem edgeWhole4 (c : Dev nD) (t : Fin cfg1.N) : iblk1 V c 4 t = V c main_v3 := by
  obtain ⟨-, -, -, -, -, -, -, -, e8, e9, -, -⟩ := edgeIndex t
  funext y
  show V c main_v3 (((cfg1.win 4).blk t).view.emb y) = V c main_v3 y
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- What point `t` writes back is block `t` of the function on all the rows: an entry reads one row of the input. -/
theorem edgeFlushed (c : Dev nD) (t : Fin cfg1.N) :
    (dat1 V c).flushed 5 t = ((cfg1.win 5).blk t).view.read (Elt Ideal)
      (mlp2 (V c main_arg1) (truncf .bf16 (V c main_arg6) Facts₀.bitsLt_bf16_f32) (V c main_v2) (truncf .bf16 (V c main_arg8) Facts₀.bitsLt_bf16_f32) (V c main_v3)) := by
  show (cfg1.win 5).cut (grid1.coords t) ((dat1 V c).after 5 t) = _
  rw [after1_5]
  unfold out1_5
  rw [View.canon_unit_zero offsets_zero']
  simp only [View.ld_unit_zero (S := S8000x64) offsets_zero', View.ld_unit_zero (S := S64x64) offsets_zero', View.ld_unit_zero (S := S1x64) offsets_zero']
  rw [edgeBody_eq, edgeWhole1 V c t, edgeWhole2 V c t, edgeWhole3 V c t, edgeWhole4 V c t]
  obtain ⟨e0, e1, -, -, -, -, -, -, -, -, e10, e11⟩ := edgeIndex t
  have ht : t.val < 100 := lt_of_lt_of_eq t.isLt N_1
  funext j
  obtain ⟨p, q, rfl⟩ : ∃ (p : Fin 8000) (q : Fin 64), j = ix2 p q := ⟨j 0, j 1, eq_ix2 j⟩
  have hp := p.isLt
  have hrow : ((cfg1.win 5).blk t).view.emb (ix2 p q) = ix2 (⟨t.val * 8000 + p.val, by omega⟩ : Fin 800000) q := by
    funext a; apply Fin.ext
    match a with
    | ⟨0, _⟩ => show win1_5.index t (0 : Fin 2) * 8000 + 1 * p.val = t.val * 8000 + p.val; omega
    | ⟨1, _⟩ => show win1_5.index t (1 : Fin 2) * 64 + 1 * q.val = q.val; omega
  show (mlp2 (iblk1 V c 0 t) (truncf .bf16 (V c main_arg6) Facts₀.bitsLt_bf16_f32) (V c main_v2) (truncf .bf16 (V c main_arg8) Facts₀.bitsLt_bf16_f32) (V c main_v3)) (ix2 p q)
    = (mlp2 (V c main_arg1) (truncf .bf16 (V c main_arg6) Facts₀.bitsLt_bf16_f32) (V c main_v2) (truncf .bf16 (V c main_arg8) Facts₀.bitsLt_bf16_f32) (V c main_v3)) (((cfg1.win 5).blk t).view.emb (ix2 p q))
  rw [hrow]
  refine edgeRows p _ (fun k => ?_) q
  show V c main_arg1 (((cfg1.win 0).blk t).view.emb (ix2 p k)) = V c main_arg1 (ix2 (⟨t.val * 8000 + p.val, by omega⟩ : Fin 800000) k)
  refine congrArg _ ?_
  funext a; apply Fin.ext
  match a with
  | ⟨0, _⟩ => show win1_0.index t (0 : Fin 2) * 8000 + 1 * p.val = t.val * 8000 + p.val; omega
  | ⟨1, _⟩ => show win1_0.index t (1 : Fin 2) * 64 + 1 * k.val = k.val; omega

/-- An index of the result is in point `t`'s block iff each coordinate is in the block's range on its axis. -/
theorem edgeMem (t : Fin cfg1.N) (i : S800000x64.Idx) :
    i ∈ ((cfg1.win 5).blk t).view.set ↔ ∀ a : Fin 2, win1_5.index t a * S8000x64.size a ≤ (i a).val
      ∧ (i a).val < win1_5.index t a * S8000x64.size a + S8000x64.size a := by
  show i ∈ ((View.whole main_v4).slice (win1_5.rect t)).set ↔ _
  rw [View.set_slice_whole, Rect.mem_set_unit]
  exact Iff.rfl

/-- Row `r` of the result is in the block of point `r / 8000`. -/
theorem edgeCover (i : S800000x64.Idx) :
    ∃ t : Fin cfg1.N, (cfg1.win 5).flush t = true ∧ i ∈ ((cfg1.win 5).blk t).view.set := by
  have hi0 : (i 0).val < 800000 := (i 0).isLt
  have hi1 : (i 1).val < 64 := (i 1).isLt
  have hN : cfg1.N = 100 := N_1
  let t : Fin cfg1.N := ⟨(i 0).val / 8000, by rw [hN]; omega⟩
  have htv : t.val = (i 0).val / 8000 := rfl
  obtain ⟨-, -, -, -, -, -, -, -, -, -, e10, e11⟩ := edgeIndex t
  refine ⟨t, flush1_5 t, ?_⟩
  rw [edgeMem]
  intro a
  match a with
  | ⟨0, _⟩ =>
    show win1_5.index t (0 : Fin 2) * 8000 ≤ (i 0).val ∧ (i 0).val < win1_5.index t (0 : Fin 2) * 8000 + 8000
    omega
  | ⟨1, _⟩ =>
    show win1_5.index t (1 : Fin 2) * 64 ≤ (i 1).val ∧ (i 1).val < win1_5.index t (1 : Fin 2) * 64 + 64
    omega

/-- After the grid the result array holds the function of the arrays the grid found, on all the rows. -/
theorem edgeFinal (c : Dev nD) :
    (dat1 V c).arrAt 5 cfg1.N
      = mlp2 (V c main_arg1) (truncf .bf16 (V c main_arg6) Facts₀.bitsLt_bf16_f32) (V c main_v2) (truncf .bf16 (V c main_arg8) Facts₀.bitsLt_bf16_f32) (V c main_v3) :=
  (dat1 V c).arrAt_eq_of_cover 5 _ (fun t _ => edgeFlushed V c t) edgeCover

end Cert.KernelIdeal.Whole.EdgeNet

end
-- ==== Proof.HeadRegion.lean ====
/-
  The output head: a grid of ten blocks of 5000 rows, each block through a dense layer, the shifted softplus and a second
  dense layer. Block `t` of the result is rows `5000·t … 5000·t + 4999` of the head on all 50000 rows, because an entry reads
  one row of the input; the ten blocks tile the result.
-/
import proofs.«125523_j25623774888013_1_alg».proof.Proof.Gen.KernelIdeal.Frame
import proofs.«125523_j25623774888013_1_alg».proof.Proof.LibSoftplusLayers
import Idealize.ShloMosaic.Lib.Pipeline.Value

set_option maxRecDepth 16384

noncomputable section

namespace Cert.KernelIdeal.Whole.Head

open Cert.KernelIdeal Cert.KernelIdeal.Gen
open Idealize.ShloMosaic Idealize.ShloMosaic.TcCoe Idealize.SL.Sem
open Idealize.ShloMosaic.ValueIdx Idealize.ShloMosaic.Affine Idealize.ShloMosaic.SoftplusLayers
open Idealize.ShloMosaic.Pipeline (Dat)

variable (V : (c : Dev nD) → (b : Ref sig .tc) → Buf (Elt Ideal) ((c : Thread nD τ).loc b))

theorem offsets_zero' : (![0, 0] : Fin 2 → Nat) = fun _ => 0 := funext fun a => by fin_cases a <;> rfl

/-- The body's stored value is the kernel-side output head of its five loads (the block of rows first recast to its own
    shape), hence two dense layers with the activation between them. -/
theorem headBody_eq (x0 : Vec Ideal S5000x64 .f32) (x1 : Vec Ideal S64x64 .f32) (x2 : Vec Ideal S1x64 .f32)
    (x3 : Vec Ideal S64x64 .f32) (x4 : Vec Ideal S1x64 .f32) :
    k2_pay1 (F := Ideal) x0 x1 x2 x3 x4
      = proj2 x0 (truncf .bf16 x1 Facts₀.bitsLt_bf16_f32) x2 (truncf .bf16 x3 Facts₀.bitsLt_bf16_f32) x4 :=
  (show k2_pay1 (F := Ideal) x0 x1 x2 x3 x4
      = proj2K dot_S5000x64_S64x64_S5000x64_1_0_0_1_n_n dot_S5000x64_S64x64_S5000x64_1_0_0_1_n_n Facts₀.bitsLt_bf16_f32
          Facts₀.shapeCasts_S1x64_S1x64 Facts₀.broadcasts_S1x64_S5000x64 Facts₀.shapeCasts_S1x64_S1x64 Facts₀.broadcasts_S1x64_S5000x64
          (shapeCast S5000x64 x0 Facts₀.shapeCasts_S5000x64_S5000x64) x1 x2 x3 x4 from rfl).trans
    ((congrArg (fun y => proj2K dot_S5000x64_S64x64_S5000x64_1_0_0_1_n_n dot_S5000x64_S64x64_S5000x64_1_0_0_1_n_n Facts₀.bitsLt_bf16_f32
          Facts₀.shapeCasts_S1x64_S1x64 Facts₀.broadcasts_S1x64_S5000x64 Facts₀.shapeCasts_S1x64_S1x64 Facts₀.broadcasts_S1x64_S5000x64
          y x1 x2 x3 x4) (shapeCast_self x0 Facts₀.shapeCasts_S5000x64_S5000x64)).trans
      (proj2K_eq rfl rfl _ _ _ _ _ x0 x1 x2 x3 x4))

/-- Rows that agree give entries that agree. -/
theorem headRows {φ1 φ2 : FTy} {Xb : FVec Ideal S5000x64 .f32} {X : FVec Ideal S50000x64 .f32}
    {W1 : FVec Ideal S64x64 φ1} {b1 : FVec Ideal S1x64 .f32} {W2 : FVec Ideal S64x64 φ2} {b2 : FVec Ideal S1x64 .f32}
    (p : Fin 5000) (r : Fin 50000) (h : ∀ k : Fin 64, Xb (ix2 p k) = X (ix2 r k)) (q : Fin 64) :
    proj2 Xb W1 b1 W2 b2 (ix2 p q) = proj2 X W1 b1 W2 b2 (ix2 r q) :=
  proj2_rows Xb X W1 b1 W2 b2 p r h q

/-- Where each window's block sits at grid point `t`: the row windows at block row `t`, the weights and the bias rows whole. -/
theorem headIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 1's block at any point is its whole array. -/
theorem headWhole1 (c : Dev nD) (t : Fin cfg2.N) : iblk2 V c 1 t = V c main_arg10 := by
  obtain ⟨-, -, e2, e3, -, -, -, -, -, -, -, -⟩ := headIndex t
  funext y
  show V c main_arg10 (((cfg2.win 1).blk t).view.emb y) = V c main_arg10 y
  refine congrArg _ ?_
  funext a; apply Fin.ext
  match a with
  | ⟨0, _⟩ => show win2_1.index t (0 : Fin 2) * 64 + 1 * (y 0).val = (y 0).val; omega
  | ⟨1, _⟩ => show win2_1.index t (1 : Fin 2) * 64 + 1 * (y 1).val = (y 1).val; omega

/-- Window 2's block at any point is its whole array. -/
theorem headWhole2 (c : Dev nD) (t : Fin cfg2.N) : iblk2 V c 2 t = V c main_v16 := by
  obtain ⟨-, -, -, -, e4, e5, -, -, -, -, -, -⟩ := headIndex t
  funext y
  show V c main_v16 (((cfg2.win 2).blk t).view.emb y) = V c main_v16 y
  refine congrArg _ ?_
  funext a; apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- Window 3's block at any point is its whole array. -/
theorem headWhole3 (c : Dev nD) (t : Fin cfg2.N) : iblk2 V c 3 t = V c main_arg12 := by
  obtain ⟨-, -, -, -, -, -, e6, e7, -, -, -, -⟩ := headIndex t
  funext y
  show V c main_arg12 (((cfg2.win 3).blk t).view.emb y) = V c main_arg12 y
  refine congrArg _ ?_
  funext a; apply Fin.ext
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- Window 4's block at any point is its whole array. -/
theorem headWhole4 (c : Dev nD) (t : Fin cfg2.N) : iblk2 V c 4 t = V c main_v17 := by
  obtain ⟨-, -, -, -, -, -, -, -, e8, e9, -, -⟩ := headIndex t
  funext y
  show V c main_v17 (((cfg2.win 4).blk t).view.emb y) = V c main_v17 y
  refine congrArg _ ?_
  funext a; apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- What point `t` writes back is block `t` of the function on all the rows: an entry reads one row of the input. -/
theorem headFlushed (c : Dev nD) (t : Fin cfg2.N) :
    (dat2 V c).flushed 5 t = ((cfg2.win 5).blk t).view.read (Elt Ideal)
      (proj2 (V c main_v15) (truncf .bf16 (V c main_arg10) Facts₀.bitsLt_bf16_f32) (V c main_v16) (truncf .bf16 (V c main_arg12) Facts₀.bitsLt_bf16_f32) (V c main_v17)) := by
  show (cfg2.win 5).cut (grid2.coords t) ((dat2 V c).after 5 t) = _
  rw [after2_5]
  unfold out2_5
  rw [View.canon_unit_zero offsets_zero']
  simp only [View.ld_unit_zero (S := S5000x64) offsets_zero', View.ld_unit_zero (S := S64x64) offsets_zero', View.ld_unit_zero (S := S1x64) offsets_zero']
  rw [headBody_eq, headWhole1 V c t, headWhole2 V c t, headWhole3 V c t, headWhole4 V c t]
  obtain ⟨e0, e1, -, -, -, -, -, -, -, -, e10, e11⟩ := headIndex t
  have ht : t.val < 10 := lt_of_lt_of_eq t.isLt N_2
  funext j
  obtain ⟨p, q, rfl⟩ : ∃ (p : Fin 5000) (q : Fin 64), j = ix2 p q := ⟨j 0, j 1, eq_ix2 j⟩
  have hp := p.isLt
  have hrow : ((cfg2.win 5).blk t).view.emb (ix2 p q) = ix2 (⟨t.val * 5000 + p.val, by omega⟩ : Fin 50000) q := by
    funext a; apply Fin.ext
    match a with
    | ⟨0, _⟩ => show win2_5.index t (0 : Fin 2) * 5000 + 1 * p.val = t.val * 5000 + p.val; omega
    | ⟨1, _⟩ => show win2_5.index t (1 : Fin 2) * 64 + 1 * q.val = q.val; omega
  show (proj2 (iblk2 V c 0 t) (truncf .bf16 (V c main_arg10) Facts₀.bitsLt_bf16_f32) (V c main_v16) (truncf .bf16 (V c main_arg12) Facts₀.bitsLt_bf16_f32) (V c main_v17)) (ix2 p q)
    = (proj2 (V c main_v15) (truncf .bf16 (V c main_arg10) Facts₀.bitsLt_bf16_f32) (V c main_v16) (truncf .bf16 (V c main_arg12) Facts₀.bitsLt_bf16_f32) (V c main_v17)) (((cfg2.win 5).blk t).view.emb (ix2 p q))
  rw [hrow]
  refine headRows p _ (fun k => ?_) q
  show V c main_v15 (((cfg2.win 0).blk t).view.emb (ix2 p k)) = V c main_v15 (ix2 (⟨t.val * 5000 + p.val, by omega⟩ : Fin 50000) k)
  refine congrArg _ ?_
  funext a; apply Fin.ext
  match a with
  | ⟨0, _⟩ => show win2_0.index t (0 : Fin 2) * 5000 + 1 * p.val = t.val * 5000 + p.val; omega
  | ⟨1, _⟩ => show win2_0.index t (1 : Fin 2) * 64 + 1 * k.val = k.val; omega

/-- An index of the result is in point `t`'s block iff each coordinate is in the block's range on its axis. -/
theorem headMem (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v18).slice (win2_5.rect t)).set ↔ _
  rw [View.set_slice_whole, Rect.mem_set_unit]
  exact Iff.rfl

/-- Row `r` of the result is in the block of point `r / 5000`. -/
theorem headCover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  have htv : t.val = (i 0).val / 5000 := rfl
  obtain ⟨-, -, -, -, -, -, -, -, -, -, e10, e11⟩ := headIndex t
  refine ⟨t, flush2_5 t, ?_⟩
  rw [headMem]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 64 ≤ (i 1).val ∧ (i 1).val < win2_5.index t (1 : Fin 2) * 64 + 64
    omega

/-- After the grid the result array holds the function of the arrays the grid found, on all the rows. -/
theorem headFinal (c : Dev nD) :
    (dat2 V c).arrAt 5 cfg2.N
      = proj2 (V c main_v15) (truncf .bf16 (V c main_arg10) Facts₀.bitsLt_bf16_f32) (V c main_v16) (truncf .bf16 (V c main_arg12) Facts₀.bitsLt_bf16_f32) (V c main_v17) :=
  (dat2 V c).arrAt_eq_of_cover 5 _ (fun t _ => headFlushed V c t) headCover

end Cert.KernelIdeal.Whole.Head

end
-- ==== Proof.Spec.lean ====
/-
  The whole computation as one function of the argument arrays, over the extended reals: a continuous-filter convolution
  layer of a graph network on 50000 nodes and 800000 edges with 64 features.

    hv  = X · Wn + bn                                   node features projected            [50000, 64]
    he  = ssp (ssp (E · W1 + b1) · W2 + b2)             edge features through two layers   [800000, 64]
    h   = Σ over edges e with dst e = v of hv[src e] ⊙ he[e]      messages gathered, multiplied, summed per node
    out = ssp (h · Wo + bo) · Wp + bp                   the output head                    [50000, 64]

  `ssp` is the shifted softplus. The middle line is the host's gather / multiply / scatter-add, which both programs
  run as the same operations on the same index arrays: it is kept as those operations, never opened.
-/
import proofs.«125523_j25623774888013_1_alg».proof.Proof.LibSoftplusLayers

noncomputable section

namespace Cert.Spec

open Idealize.ShloMosaic Idealize.ShloMosaic.ValueIdx Idealize.ShloMosaic.Affine Idealize.ShloMosaic.SoftplusLayers

abbrev Nodes : Shape := ⟨2, ![50000, 64]⟩
abbrev Edges : Shape := ⟨2, ![800000, 64]⟩
abbrev Ends : Shape := ⟨1, ![800000]⟩
abbrev EndsCol : Shape := ⟨2, ![800000, 1]⟩
abbrev Weights : Shape := ⟨2, ![64, 64]⟩
abbrev Bias : Shape := ⟨1, ![64]⟩
abbrev BiasRow : Shape := ⟨2, ![1, 64]⟩
abbrev Scalar0 : Shape := ⟨0, ![]⟩

/-- Messages along the edges summed at their destination nodes: the source index wrapped once if negative, the source rows
    gathered, multiplied entry by entry with the edge features, and scatter-added into zeros at the destination rows. -/
def messages (g : GatherDims Nodes EndsCol Edges) (sc : ScatterDims Nodes EndsCol Edges)
    (hz : Scalar0.BroadcastsInDim Ends ![]) (hl : Ends.BroadcastsInDim EndsCol ![0]) (h0 : Scalar0.BroadcastsInDim Nodes ![])
    (hv : FVec Ideal Nodes .f32) (he : FVec Ideal Edges .f32) (src dst : IVec Ends 32) : FVec Ideal Nodes .f32 :=
  Host.scatterAdd sc (broadcastInDim Nodes ![] h0 (constant (F := Ideal) Scalar0 .f32 0x00000000#32)) (broadcastInDim EndsCol ![0] hl dst)
    (mulf (Host.gather g hv (broadcastInDim EndsCol ![0] hl
        (select (cmpi .slt src (broadcastInDim Ends ![] hz (constantI Scalar0 32 0#32)))
          (addi src (broadcastInDim Ends ![] hz (constantI Scalar0 32 50000#32))) src))) he)

/-- The layer: weights rounded to bf16 (the identity on the extended reals), biases as rows. -/
def network (g : GatherDims Nodes EndsCol Edges) (sc : ScatterDims Nodes EndsCol Edges)
    (hz : Scalar0.BroadcastsInDim Ends ![]) (hl : Ends.BroadcastsInDim EndsCol ![0]) (h0 : Scalar0.BroadcastsInDim Nodes ![])
    (ht : FTy.bf16.bits < FTy.f32.bits) (hc : Bias.ShapeCasts BiasRow)
    (X : FVec Ideal Nodes .f32) (E : FVec Ideal Edges .f32) (src dst : IVec Ends 32)
    (Wn : FVec Ideal Weights .f32) (bn : FVec Ideal Bias .f32) (W1 : FVec Ideal Weights .f32) (b1 : FVec Ideal Bias .f32)
    (W2 : FVec Ideal Weights .f32) (b2 : FVec Ideal Bias .f32) (Wo : FVec Ideal Weights .f32) (bo : FVec Ideal Bias .f32)
    (Wp : FVec Ideal Weights .f32) (bp : FVec Ideal Bias .f32) : FVec Ideal Nodes .f32 :=
  proj2
    (messages g sc hz hl h0
      (affine X (truncf .bf16 Wn ht) (shapeCast BiasRow bn hc))
      (mlp2 E (truncf .bf16 W1 ht) (shapeCast BiasRow b1 hc) (truncf .bf16 W2 ht) (shapeCast BiasRow b2 hc))
      src dst)
    (truncf .bf16 Wo ht) (shapeCast BiasRow bo hc) (truncf .bf16 Wp ht) (shapeCast BiasRow bp hc)

end Cert.Spec

end
-- ==== Proof.KernelValue.lean ====
/-
  The last boundary's contents at the result array, walked back through the program's six stretches to the launch memory:
  the output head's grid found the summed messages and its weights; the messages are the host's gather / multiply /
  scatter-add of the projected node features (left by the first grid, untouched since) and the edge features (left by the
  second grid); each grid found its bias rows as the host's recasts of the bias vectors, and every argument array as launched.
  Together: the result array ends at the one function `Cert.Spec.network` of the argument arrays.
-/
import proofs.«125523_j25623774888013_1_alg».proof.Proof.Gen.KernelIdeal.Frame
import proofs.«125523_j25623774888013_1_alg».proof.Proof.NodeRegion
import proofs.«125523_j25623774888013_1_alg».proof.Proof.EdgeRegion
import proofs.«125523_j25623774888013_1_alg».proof.Proof.HeadRegion
import proofs.«125523_j25623774888013_1_alg».proof.Proof.Spec
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.ValueIdx Idealize.ShloMosaic.Affine Idealize.ShloMosaic.SoftplusLayers Cert.Spec

variable (m : (ℓ : Loc nD τ sig) → Buf (Elt Ideal) ℓ) (ρ : Dev nD → PrngReg) (c : Dev nD)

/-! ## Before the first grid: one recast of a bias vector -/
theorem W1_arg0 : W1 m ρ c (Proc.devRef .tc main_arg0) = m ((c : Thread nD τ).loc main_arg0) := by
  show StableHlo.after hostOps0 (W0 m ρ c) (Proc.devRef .tc main_arg0) = _
  after_results <;> rfl
theorem W1_arg1 : W1 m ρ c (Proc.devRef .tc main_arg1) = m ((c : Thread nD τ).loc main_arg1) := by
  show StableHlo.after hostOps0 (W0 m ρ c) (Proc.devRef .tc main_arg1) = _
  after_results <;> rfl
theorem W1_arg2 : W1 m ρ c (Proc.devRef .tc main_arg2) = m ((c : Thread nD τ).loc main_arg2) := by
  show StableHlo.after hostOps0 (W0 m ρ c) (Proc.devRef .tc main_arg2) = _
  after_results <;> rfl
theorem W1_arg3 : W1 m ρ c (Proc.devRef .tc main_arg3) = m ((c : Thread nD τ).loc main_arg3) := by
  show StableHlo.after hostOps0 (W0 m ρ c) (Proc.devRef .tc main_arg3) = _
  after_results <;> rfl
theorem W1_arg4 : W1 m ρ c (Proc.devRef .tc main_arg4) = m ((c : Thread nD τ).loc main_arg4) := by
  show StableHlo.after hostOps0 (W0 m ρ c) (Proc.devRef .tc main_arg4) = _
  after_results <;> rfl
theorem W1_arg6 : W1 m ρ c (Proc.devRef .tc main_arg6) = m ((c : Thread nD τ).loc main_arg6) := by
  show StableHlo.after hostOps0 (W0 m ρ c) (Proc.devRef .tc main_arg6) = _
  after_results <;> rfl
theorem W1_arg7 : W1 m ρ c (Proc.devRef .tc main_arg7) = m ((c : Thread nD τ).loc main_arg7) := by
  show StableHlo.after hostOps0 (W0 m ρ c) (Proc.devRef .tc main_arg7) = _
  after_results <;> rfl
theorem W1_arg8 : W1 m ρ c (Proc.devRef .tc main_arg8) = m ((c : Thread nD τ).loc main_arg8) := by
  show StableHlo.after hostOps0 (W0 m ρ c) (Proc.devRef .tc main_arg8) = _
  after_results <;> rfl
theorem W1_arg9 : W1 m ρ c (Proc.devRef .tc main_arg9) = m ((c : Thread nD τ).loc main_arg9) := by
  show StableHlo.after hostOps0 (W0 m ρ c) (Proc.devRef .tc main_arg9) = _
  after_results <;> rfl
theorem W1_arg10 : W1 m ρ c (Proc.devRef .tc main_arg10) = m ((c : Thread nD τ).loc main_arg10) := by
  show StableHlo.after hostOps0 (W0 m ρ c) (Proc.devRef .tc main_arg10) = _
  after_results <;> rfl
theorem W1_arg11 : W1 m ρ c (Proc.devRef .tc main_arg11) = m ((c : Thread nD τ).loc main_arg11) := by
  show StableHlo.after hostOps0 (W0 m ρ c) (Proc.devRef .tc main_arg11) = _
  after_results <;> rfl
theorem W1_arg12 : W1 m ρ c (Proc.devRef .tc main_arg12) = m ((c : Thread nD τ).loc main_arg12) := by
  show StableHlo.after hostOps0 (W0 m ρ c) (Proc.devRef .tc main_arg12) = _
  after_results <;> rfl
theorem W1_arg13 : W1 m ρ c (Proc.devRef .tc main_arg13) = m ((c : Thread nD τ).loc main_arg13) := by
  show StableHlo.after hostOps0 (W0 m ρ c) (Proc.devRef .tc main_arg13) = _
  after_results <;> rfl
theorem W1_v0 : W1 m ρ c (Proc.devRef .tc main_v0) = shapeCast S1x64 (m ((c : Thread nD τ).loc main_arg5)) Facts₀.shapeCasts_S64_S1x64 := by
  show StableHlo.after hostOps0 (W0 m ρ c) (Proc.devRef .tc main_v0) = _
  after_results <;> rfl

/-! ## After the first grid: the projected node features; the arguments as launched -/

theorem W2_v1 : W2 m ρ c (Proc.devRef .tc main_v1) = affine (m ((c : Thread nD τ).loc main_arg0)) (truncf .bf16 (m ((c : Thread nD τ).loc main_arg4)) Facts₀.bitsLt_bf16_f32) (shapeCast S1x64 (m ((c : Thread nD τ).loc main_arg5)) Facts₀.shapeCasts_S64_S1x64) := by
  refine (W2_arr m ρ c 3).trans ((nodeFinal (V1 m ρ) c).trans ?_)
  show affine (W1 m ρ c (Proc.devRef .tc main_arg0)) (truncf .bf16 (W1 m ρ c (Proc.devRef .tc main_arg4)) Facts₀.bitsLt_bf16_f32) (W1 m ρ c (Proc.devRef .tc main_v0)) = _
  rw [W1_arg0, W1_arg4, W1_v0]
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)

/-! ## Before the second grid: two more recasts -/
theorem W3_arg1 : W3 m ρ c (Proc.devRef .tc main_arg1) = m ((c : Thread nD τ).loc main_arg1) := by
  have e : StableHlo.after hostOps1 (W2 m ρ c) (Proc.devRef .tc main_arg1) = W2 m ρ c (Proc.devRef .tc main_arg1) := by
    after_results <;> rfl
  exact e.trans (by rw [W2_arg1])
theorem W3_arg2 : W3 m ρ c (Proc.devRef .tc main_arg2) = m ((c : Thread nD τ).loc main_arg2) := by
  have e : StableHlo.after hostOps1 (W2 m ρ c) (Proc.devRef .tc main_arg2) = W2 m ρ c (Proc.devRef .tc main_arg2) := by
    after_results <;> rfl
  exact e.trans (by rw [W2_arg2])
theorem W3_arg3 : W3 m ρ c (Proc.devRef .tc main_arg3) = m ((c : Thread nD τ).loc main_arg3) := by
  have e : StableHlo.after hostOps1 (W2 m ρ c) (Proc.devRef .tc main_arg3) = W2 m ρ c (Proc.devRef .tc main_arg3) := by
    after_results <;> rfl
  exact e.trans (by rw [W2_arg3])
theorem W3_arg6 : W3 m ρ c (Proc.devRef .tc main_arg6) = m ((c : Thread nD τ).loc main_arg6) := by
  have e : StableHlo.after hostOps1 (W2 m ρ c) (Proc.devRef .tc main_arg6) = W2 m ρ c (Proc.devRef .tc main_arg6) := by
    after_results <;> rfl
  exact e.trans (by rw [W2_arg6])
theorem W3_arg8 : W3 m ρ c (Proc.devRef .tc main_arg8) = m ((c : Thread nD τ).loc main_arg8) := by
  have e : StableHlo.after hostOps1 (W2 m ρ c) (Proc.devRef .tc main_arg8) = W2 m ρ c (Proc.devRef .tc main_arg8) := by
    after_results <;> rfl
  exact e.trans (by rw [W2_arg8])
theorem W3_arg10 : W3 m ρ c (Proc.devRef .tc main_arg10) = m ((c : Thread nD τ).loc main_arg10) := by
  have e : StableHlo.after hostOps1 (W2 m ρ c) (Proc.devRef .tc main_arg10) = W2 m ρ c (Proc.devRef .tc main_arg10) := by
    after_results <;> rfl
  exact e.trans (by rw [W2_arg10])
theorem W3_arg11 : W3 m ρ c (Proc.devRef .tc main_arg11) = m ((c : Thread nD τ).loc main_arg11) := by
  have e : StableHlo.after hostOps1 (W2 m ρ c) (Proc.devRef .tc main_arg11) = W2 m ρ c (Proc.devRef .tc main_arg11) := by
    after_results <;> rfl
  exact e.trans (by rw [W2_arg11])
theorem W3_arg12 : W3 m ρ c (Proc.devRef .tc main_arg12) = m ((c : Thread nD τ).loc main_arg12) := by
  have e : StableHlo.after hostOps1 (W2 m ρ c) (Proc.devRef .tc main_arg12) = W2 m ρ c (Proc.devRef .tc main_arg12) := by
    after_results <;> rfl
  exact e.trans (by rw [W2_arg12])
theorem W3_arg13 : W3 m ρ c (Proc.devRef .tc main_arg13) = m ((c : Thread nD τ).loc main_arg13) := by
  have e : StableHlo.after hostOps1 (W2 m ρ c) (Proc.devRef .tc main_arg13) = W2 m ρ c (Proc.devRef .tc main_arg13) := by
    after_results <;> rfl
  exact e.trans (by rw [W2_arg13])
theorem W3_v1 : W3 m ρ c (Proc.devRef .tc main_v1) = affine (m ((c : Thread nD τ).loc main_arg0)) (truncf .bf16 (m ((c : Thread nD τ).loc main_arg4)) Facts₀.bitsLt_bf16_f32) (shapeCast S1x64 (m ((c : Thread nD τ).loc main_arg5)) Facts₀.shapeCasts_S64_S1x64) := by
  have e : StableHlo.after hostOps1 (W2 m ρ c) (Proc.devRef .tc main_v1) = W2 m ρ c (Proc.devRef .tc main_v1) := by
    after_results <;> rfl
  exact e.trans (by rw [W2_v1])
theorem W3_v2 : W3 m ρ c (Proc.devRef .tc main_v2) = shapeCast S1x64 (m ((c : Thread nD τ).loc main_arg7)) Facts₀.shapeCasts_S64_S1x64 := by
  have e : StableHlo.after hostOps1 (W2 m ρ c) (Proc.devRef .tc main_v2) = shapeCast S1x64 (W2 m ρ c (Proc.devRef .tc main_arg7)) Facts₀.shapeCasts_S64_S1x64 := by
    after_results <;> rfl
  exact e.trans (by rw [W2_arg7])
theorem W3_v3 : W3 m ρ c (Proc.devRef .tc main_v3) = shapeCast S1x64 (m ((c : Thread nD τ).loc main_arg9)) Facts₀.shapeCasts_S64_S1x64 := by
  have e : StableHlo.after hostOps1 (W2 m ρ c) (Proc.devRef .tc main_v3) = shapeCast S1x64 (W2 m ρ c (Proc.devRef .tc main_arg9)) Facts₀.shapeCasts_S64_S1x64 := by
    after_results <;> rfl
  exact e.trans (by rw [W2_arg9])

/-! ## After the second grid: the edge features; the node features and the arguments untouched -/

theorem W4_v4 : W4 m ρ c (Proc.devRef .tc main_v4) = mlp2 (m ((c : Thread nD τ).loc main_arg1)) (truncf .bf16 (m ((c : Thread nD τ).loc main_arg6)) Facts₀.bitsLt_bf16_f32) (shapeCast S1x64 (m ((c : Thread nD τ).loc main_arg7)) Facts₀.shapeCasts_S64_S1x64) (truncf .bf16 (m ((c : Thread nD τ).loc main_arg8)) Facts₀.bitsLt_bf16_f32) (shapeCast S1x64 (m ((c : Thread nD τ).loc main_arg9)) Facts₀.shapeCasts_S64_S1x64) := by
  refine (W4_arr m ρ c 5).trans ((EdgeNet.edgeFinal (V3 m ρ) c).trans ?_)
  show mlp2 (W3 m ρ c (Proc.devRef .tc main_arg1)) (truncf .bf16 (W3 m ρ c (Proc.devRef .tc main_arg6)) Facts₀.bitsLt_bf16_f32) (W3 m ρ c (Proc.devRef .tc main_v2))
      (truncf .bf16 (W3 m ρ c (Proc.devRef .tc main_arg8)) Facts₀.bitsLt_bf16_f32) (W3 m ρ c (Proc.devRef .tc main_v3)) = _
  rw [W3_arg1, W3_arg6, W3_v2, W3_arg8, W3_v3]
theorem W4_v1 : W4 m ρ c (Proc.devRef .tc main_v1) = affine (m ((c : Thread nD τ).loc main_arg0)) (truncf .bf16 (m ((c : Thread nD τ).loc main_arg4)) Facts₀.bitsLt_bf16_f32) (shapeCast S1x64 (m ((c : Thread nD τ).loc main_arg5)) Facts₀.shapeCasts_S64_S1x64) :=
  (W4_of_ne m ρ c main_v1 (by decide)).trans (W3_v1 m ρ c)
theorem W4_arg2 : W4 m ρ c (Proc.devRef .tc main_arg2) = m ((c : Thread nD τ).loc main_arg2) :=
  (W4_of_ne m ρ c main_arg2 (by decide)).trans (W3_arg2 m ρ c)
theorem W4_arg3 : W4 m ρ c (Proc.devRef .tc main_arg3) = m ((c : Thread nD τ).loc main_arg3) :=
  (W4_of_ne m ρ c main_arg3 (by decide)).trans (W3_arg3 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)
theorem W4_arg12 : W4 m ρ c (Proc.devRef .tc main_arg12) = m ((c : Thread nD τ).loc main_arg12) :=
  (W4_of_ne m ρ c main_arg12 (by decide)).trans (W3_arg12 m ρ c)
theorem W4_arg13 : W4 m ρ c (Proc.devRef .tc main_arg13) = m ((c : Thread nD τ).loc main_arg13) :=
  (W4_of_ne m ρ c main_arg13 (by decide)).trans (W3_arg13 m ρ c)

/-! ## Before the third grid: the messages summed per node, and the last two recasts -/
theorem W5_v15 : W5 m ρ c (Proc.devRef .tc main_v15) = messages gather_S50000x64_S800000x1_S800000x64_1_0_n_n_0_1_164 scatter_S50000x64_S800000x1_S800000x64_1_0_0_1
        Facts₀.bcast_S_S800000 Facts₀.bcast_S800000_S800000x1_0 Facts₀.bcast_S_S50000x64
        (affine (m ((c : Thread nD τ).loc main_arg0)) (truncf .bf16 (m ((c : Thread nD τ).loc main_arg4)) Facts₀.bitsLt_bf16_f32) (shapeCast S1x64 (m ((c : Thread nD τ).loc main_arg5)) Facts₀.shapeCasts_S64_S1x64))
        (mlp2 (m ((c : Thread nD τ).loc main_arg1)) (truncf .bf16 (m ((c : Thread nD τ).loc main_arg6)) Facts₀.bitsLt_bf16_f32) (shapeCast S1x64 (m ((c : Thread nD τ).loc main_arg7)) Facts₀.shapeCasts_S64_S1x64) (truncf .bf16 (m ((c : Thread nD τ).loc main_arg8)) Facts₀.bitsLt_bf16_f32) (shapeCast S1x64 (m ((c : Thread nD τ).loc main_arg9)) Facts₀.shapeCasts_S64_S1x64))
        (m ((c : Thread nD τ).loc main_arg2)) (m ((c : Thread nD τ).loc main_arg3)) := by
  have e : StableHlo.after hostOps2 (W4 m ρ c) (Proc.devRef .tc main_v15) = messages gather_S50000x64_S800000x1_S800000x64_1_0_n_n_0_1_164 scatter_S50000x64_S800000x1_S800000x64_1_0_0_1
        Facts₀.bcast_S_S800000 Facts₀.bcast_S800000_S800000x1_0 Facts₀.bcast_S_S50000x64
        (W4 m ρ c (Proc.devRef .tc main_v1)) (W4 m ρ c (Proc.devRef .tc main_v4)) (W4 m ρ c (Proc.devRef .tc main_arg2)) (W4 m ρ c (Proc.devRef .tc main_arg3)) := by
    after_results <;> rfl
  exact e.trans (by rw [W4_v1, W4_v4, W4_arg2, W4_arg3])
theorem W5_arg10 : W5 m ρ c (Proc.devRef .tc main_arg10) = m ((c : Thread nD τ).loc main_arg10) := by
  have e : StableHlo.after hostOps2 (W4 m ρ c) (Proc.devRef .tc main_arg10) = W4 m ρ c (Proc.devRef .tc main_arg10) := by
    after_results <;> rfl
  exact e.trans (by rw [W4_arg10])
theorem W5_arg12 : W5 m ρ c (Proc.devRef .tc main_arg12) = m ((c : Thread nD τ).loc main_arg12) := by
  have e : StableHlo.after hostOps2 (W4 m ρ c) (Proc.devRef .tc main_arg12) = W4 m ρ c (Proc.devRef .tc main_arg12) := by
    after_results <;> rfl
  exact e.trans (by rw [W4_arg12])
theorem W5_v16 : W5 m ρ c (Proc.devRef .tc main_v16) = shapeCast S1x64 (m ((c : Thread nD τ).loc main_arg11)) Facts₀.shapeCasts_S64_S1x64 := by
  have e : StableHlo.after hostOps2 (W4 m ρ c) (Proc.devRef .tc main_v16) = shapeCast S1x64 (W4 m ρ c (Proc.devRef .tc main_arg11)) Facts₀.shapeCasts_S64_S1x64 := by
    after_results <;> rfl
  exact e.trans (by rw [W4_arg11])
theorem W5_v17 : W5 m ρ c (Proc.devRef .tc main_v17) = shapeCast S1x64 (m ((c : Thread nD τ).loc main_arg13)) Facts₀.shapeCasts_S64_S1x64 := by
  have e : StableHlo.after hostOps2 (W4 m ρ c) (Proc.devRef .tc main_v17) = shapeCast S1x64 (W4 m ρ c (Proc.devRef .tc main_arg13)) Facts₀.shapeCasts_S64_S1x64 := by
    after_results <;> rfl
  exact e.trans (by rw [W4_arg13])

/-! ## After the third grid: the result -/

/-- The result array ends at the layer's function of the argument arrays. -/
theorem W6_result : W6 m ρ c (Proc.devRef .tc main_v18)
    = network gather_S50000x64_S800000x1_S800000x64_1_0_n_n_0_1_164 scatter_S50000x64_S800000x1_S800000x64_1_0_0_1
        Facts₀.bcast_S_S800000 Facts₀.bcast_S800000_S800000x1_0 Facts₀.bcast_S_S50000x64 Facts₀.bitsLt_bf16_f32 Facts₀.shapeCasts_S64_S1x64
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
        (m ((c : Thread nD τ).loc main_arg12)) (m ((c : Thread nD τ).loc main_arg13)) := by
  refine (W6_arr m ρ c 5).trans ((Head.headFinal (V5 m ρ) c).trans ?_)
  show proj2 (W5 m ρ c (Proc.devRef .tc main_v15)) (truncf .bf16 (W5 m ρ c (Proc.devRef .tc main_arg10)) Facts₀.bitsLt_bf16_f32) (W5 m ρ c (Proc.devRef .tc main_v16))
      (truncf .bf16 (W5 m ρ c (Proc.devRef .tc main_arg12)) Facts₀.bitsLt_bf16_f32) (W5 m ρ c (Proc.devRef .tc main_v17)) = _
  rw [W5_v15, W5_arg10, W5_v16, W5_arg12, W5_v17]
  rfl

end Cert.KernelIdeal.Whole

end
-- ==== Proof.RefValue.lean ====
/-
  The reference, read one stage at a time, is the host's spelling of the same layer: each dense layer a `dot_general` plus
  a twice-lifted bias, each activation the stable softplus with broadcast constants, the messages the same gather / multiply /
  scatter-add. Stage by stage the host's spelling is the function `Cert.Spec.network` is written with.
-/
import proofs.«125523_j25623774888013_1_alg».proof.Proof.Gen.ReferenceIdeal.Run
import proofs.«125523_j25623774888013_1_alg».proof.Proof.Gen.ReferenceIdeal.Read
import proofs.«125523_j25623774888013_1_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem
open Idealize.ShloMosaic.ValueIdx Idealize.ShloMosaic.Affine Idealize.ShloMosaic.SoftplusLayers Cert.Spec

variable (x0 : FVec Ideal S50000x64 .f32) (x1 : FVec Ideal S800000x64 .f32) (x2 x3 : IVec S800000 32)
  (x4 : FVec Ideal S64x64 .f32) (x5 : FVec Ideal S64 .f32) (x6 : FVec Ideal S64x64 .f32) (x7 : FVec Ideal S64 .f32)
  (x8 : FVec Ideal S64x64 .f32) (x9 : FVec Ideal S64 .f32) (x10 : FVec Ideal S64x64 .f32) (x11 : FVec Ideal S64 .f32)
  (x12 : FVec Ideal S64x64 .f32) (x13 : FVec Ideal S64 .f32)

/-! ## The stages in the host's spelling -/

theorem nodes_host : val_main_v3 (F := Ideal) x0 x4 x5
    = denseH dot_S50000x64_S64x64_S50000x64_1_0_0_1_n_n Facts₀.bcast_S64_S1x64_1 Facts₀.bcast_S1x64_S50000x64_0_1 x0 x4 x5 := rfl

theorem edges1_host : val_main_v10 (F := Ideal) x1 x6 x7
    = sspH Facts₀.bcast_S_S800000x64
        (denseH dot_S800000x64_S64x64_S800000x64_1_0_0_1_n_n Facts₀.bcast_S64_S1x64_1 Facts₀.bcast_S1x64_S800000x64_0_1 x1 x6 x7) := rfl

theorem edges2_host : val_main_v17 (F := Ideal) x1 x6 x7 x8 x9
    = sspH Facts₀.bcast_S_S800000x64
        (denseH dot_S800000x64_S64x64_S800000x64_1_0_0_1_n_n Facts₀.bcast_S64_S1x64_1 Facts₀.bcast_S1x64_S800000x64_0_1
          (val_main_v10 (F := Ideal) x1 x6 x7) x8 x9) := rfl

theorem messages_host : val_main_v28 (F := Ideal) x0 x1 x2 x3 x4 x5 x6 x7 x8 x9
    = messages gather_S50000x64_S800000x1_S800000x64_1_0_n_n_0_1_164 scatter_S50000x64_S800000x1_S800000x64_1_0_0_1
        Facts₀.bcast_S_S800000 Facts₀.bcast_S800000_S800000x1_0 Facts₀.bcast_S_S50000x64
        (val_main_v3 (F := Ideal) x0 x4 x5) (val_main_v17 (F := Ideal) x1 x6 x7 x8 x9) x2 x3 := rfl

theorem head1_host : val_main_v35 (F := Ideal) x0 x1 x2 x3 x4 x5 x6 x7 x8 x9 x10 x11
    = sspH Facts₀.bcast_S_S50000x64
        (denseH dot_S50000x64_S64x64_S50000x64_1_0_0_1_n_n Facts₀.bcast_S64_S1x64_1 Facts₀.bcast_S1x64_S50000x64_0_1
          (val_main_v28 (F := Ideal) x0 x1 x2 x3 x4 x5 x6 x7 x8 x9) x10 x11) := rfl

theorem head2_host : val_main_v39 (F := Ideal) x0 x1 x2 x3 x4 x5 x6 x7 x8 x9 x10 x11 x12 x13
    = denseH dot_S50000x64_S64x64_S50000x64_1_0_0_1_n_n Facts₀.bcast_S64_S1x64_1 Facts₀.bcast_S1x64_S50000x64_0_1
        (val_main_v35 (F := Ideal) x0 x1 x2 x3 x4 x5 x6 x7 x8 x9 x10 x11) x12 x13 := rfl

/-! ## The host's spelling is the layer's function -/

variable (ht : FTy.bf16.bits < FTy.f32.bits) (hc : Bias.ShapeCasts BiasRow)

theorem dense_nodes (X : FVec Ideal S50000x64 .f32) (W : FVec Ideal S64x64 .f32) (b : FVec Ideal S64 .f32) :
    denseH dot_S50000x64_S64x64_S50000x64_1_0_0_1_n_n Facts₀.bcast_S64_S1x64_1 Facts₀.bcast_S1x64_S50000x64_0_1 X W b
      = affine X (truncf .bf16 W ht) (shapeCast BiasRow b hc) :=
  denseH_eq rfl _ _ ht hc X W b

theorem dense_edges (X : FVec Ideal S800000x64 .f32) (W : FVec Ideal S64x64 .f32) (b : FVec Ideal S64 .f32) :
    denseH dot_S800000x64_S64x64_S800000x64_1_0_0_1_n_n Facts₀.bcast_S64_S1x64_1 Facts₀.bcast_S1x64_S800000x64_0_1 X W b
      = affine X (truncf .bf16 W ht) (shapeCast BiasRow b hc) :=
  denseH_eq rfl _ _ ht hc X W b

/-- The reference's result, as a function of its arguments, is the layer. -/
theorem result_eq : val_main_v39 (F := Ideal) x0 x1 x2 x3 x4 x5 x6 x7 x8 x9 x10 x11 x12 x13
    = network gather_S50000x64_S800000x1_S800000x64_1_0_n_n_0_1_164 scatter_S50000x64_S800000x1_S800000x64_1_0_0_1
        Facts₀.bcast_S_S800000 Facts₀.bcast_S800000_S800000x1_0 Facts₀.bcast_S_S50000x64 ht hc
        x0 x1 x2 x3 x4 x5 x6 x7 x8 x9 x10 x11 x12 x13 := by
  rw [head2_host, head1_host, messages_host, nodes_host, edges2_host, edges1_host]
  rw [dense_nodes ht hc, dense_nodes ht hc, dense_nodes ht hc, dense_edges ht hc, dense_edges ht hc]
  rw [sspH_eq, sspH_eq, sspH_eq]
  rfl

end Cert.ReferenceIdeal.RefValue

end
-- ==== Proof.lean ====
/-
  The certificate of a continuous-filter convolution layer of a graph network (50000 nodes, 800000 edges, 64 features):
  a kernel program of three row-blocked grids — the node projection, the two-layer edge network, the output head — around
  the host's gather / multiply / scatter-add, against the same layer written as host operations throughout.

  At the ideal values both programs compute one function of the argument arrays, `Cert.Spec.network`:

    hv = X·Wn + bn,   he = ssp (ssp (E·W1 + b1)·W2 + b2),   h = scatter-add over dst of hv[src] ⊙ he,   out = ssp (h·Wo + bo)·Wp + bp.

  Kernel side: each grid's result array is the grid's function on all the rows, because an entry of a dense layer reads one
  row of its input and the row blocks tile the array (NodeRegion, EdgeRegion, HeadRegion); the contents of the buffers at the
  boundaries between grids and host stretches fold these into the layer (KernelValue) and every execution ends there (KernelRun).
  Reference side: its run, read stage by stage, is the host's spelling of the same dense layers and activations (RefValue).
  The two spellings of a dense layer and of the shifted softplus are one function of the extended reals (LibSoftplusLayers over
  LibAffine and LibPlainDot): rounding to bf16 is the identity, a matrix-unit product into a zero accumulator and `dot_general`
  are the same finite sum, `0 − y = −y`, and the two "not equal" tests coincide on a linear order. No law used here needs
  finiteness, so the precondition is never opened. The idealization rewrote nothing, so `preserves` is trivial.
-/
import proofs.«125523_j25623774888013_1_alg».proof.Defs
import proofs.«125523_j25623774888013_1_alg».proof.Proof.Gen.Kernel
import proofs.«125523_j25623774888013_1_alg».proof.Proof.Gen.Kernel.Skeleton
import proofs.«125523_j25623774888013_1_alg».proof.Proof.Gen.Kernel.Launch
import proofs.«125523_j25623774888013_1_alg».proof.Proof.Gen.Kernel.Points
import proofs.«125523_j25623774888013_1_alg».proof.Proof.Gen.Kernel.Frame
import proofs.«125523_j25623774888013_1_alg».proof.Proof.Gen.KernelIdeal
import proofs.«125523_j25623774888013_1_alg».proof.Proof.Gen.KernelIdeal.Skeleton
import proofs.«125523_j25623774888013_1_alg».proof.Proof.Gen.KernelIdeal.Launch
import proofs.«125523_j25623774888013_1_alg».proof.Proof.Gen.KernelIdeal.Points
import proofs.«125523_j25623774888013_1_alg».proof.Proof.Gen.KernelIdeal.Frame
import proofs.«125523_j25623774888013_1_alg».proof.Proof.Gen.ReferenceIdeal
import proofs.«125523_j25623774888013_1_alg».proof.Proof.Gen.Pre_finite_inputs
import proofs.«125523_j25623774888013_1_alg».proof.Proof.Gen.ReferenceIdeal.Run
import proofs.«125523_j25623774888013_1_alg».proof.Proof.Gen.ReferenceIdeal.Read
import proofs.«125523_j25623774888013_1_alg».proof.Proof.KernelRun
import proofs.«125523_j25623774888013_1_alg».proof.Proof.KernelValue
import proofs.«125523_j25623774888013_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array at the layer's function of the (agreeing) argument arrays. -/
theorem algebraic : Cert.algebraic_KernelIdeal_ReferenceIdeal := by
  intro m ρ m' ρ' _ hagree
  refine ⟨fun c => Cert.Spec.network Cert.KernelIdeal.gather_S50000x64_S800000x1_S800000x64_1_0_n_n_0_1_164
      Cert.KernelIdeal.scatter_S50000x64_S800000x1_S800000x64_1_0_0_1
      Cert.KernelIdeal.Facts₀.bcast_S_S800000 Cert.KernelIdeal.Facts₀.bcast_S800000_S800000x1_0 Cert.KernelIdeal.Facts₀.bcast_S_S50000x64
      Cert.KernelIdeal.Facts₀.bitsLt_bf16_f32 Cert.KernelIdeal.Facts₀.shapeCasts_S64_S1x64
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Whole.W6_result m ρ c), (h c).2⟩)
      (Cert.KernelIdeal.Whole.run_result (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11, a12, a13⟩ := hagree c
    rw [(h c).1, Cert.ReferenceIdeal.Read.val_main_v39_eq,
      Cert.ReferenceIdeal.RefValue.result_eq _ _ _ _ _ _ _ _ _ _ _ _ _ _ Cert.KernelIdeal.Facts₀.bitsLt_bf16_f32 Cert.KernelIdeal.Facts₀.shapeCasts_S64_S1x64,
      a0, a1, a2, a3, a4, a5, a6, a7, a8, a9, a10, a11, a12, a13]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
